-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S625000x128 : Shape := ⟨2, ![625000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S625000x128 : S_.BroadcastsInDim S625000x128 (![] : Fin 0 → Fin S625000x128.rank)
  reducesTo_S625000x128_S_d0_1 : S625000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S625000x128 .f32) (main_arg2 : IVec S2x625000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S625000x128 .f32 := Host.absf main_arg1
  let main_cst_0 : FVec F S_ .f32 := constant S_ .f32 0x7F800000#32
  let main_v5 : FVec F S625000x128 .f32 := broadcastInDim S625000x128 ![] bcast_S_S625000x128 main_cst_0
  let main_v6 : IVec S625000x128 1 := cmpf .olt main_v4 main_v5
  let main_c_1 : IVec S_ 1 := constantI S_ 1 1#1
  let main_v7 : IVec S_ 1 := (fun x v => Host.reduce IntOp.andi x v reducesTo_S625000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S625000x128 : Shape := ⟨2, ![625000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S100000x1 : Shape := ⟨2, ![100000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 18
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S625000x128, .f32⟩
  | .hbm, ⟨2, _⟩ => ⟨S2x625000, .i32⟩
  | .hbm, ⟨3, _⟩ => ⟨S128x128, .f32⟩
  | .hbm, ⟨4, _⟩ => ⟨S128, .f32⟩
  | .hbm, ⟨5, _⟩ => ⟨S1x625000, .i32⟩
  | .hbm, ⟨6, _⟩ => ⟨S625000, .i32⟩
  | .hbm, ⟨7, _⟩ => ⟨S_, .f32⟩
  | .hbm, ⟨8, _⟩ => ⟨S100000x128, .f32⟩
  | .hbm, ⟨9, _⟩ => ⟨S625000x1, .i32⟩
  | .hbm, ⟨10, _⟩ => ⟨S100000x128, .f32⟩
  | .hbm, ⟨11, _⟩ => ⟨S_, .f32⟩
  | .hbm, ⟨12, _⟩ => ⟨S625000x1, .f32⟩
  | .hbm, ⟨13, _⟩ => ⟨S_, .f32⟩
  | .hbm, ⟨14, _⟩ => ⟨S100000x1, .f32⟩
  | .hbm, ⟨15, _⟩ => ⟨S625000x1, .i32⟩
  | .hbm, ⟨16, _⟩ => ⟨S100000x1, .f32⟩
  | .hbm, ⟨17, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x625000_S1x625000_0_0 : S2x625000.Slices ![0, 0] S1x625000
  shapeCasts_S1x625000_S625000 : S1x625000.ShapeCasts S625000
  bcast_S_S100000x128 : S_.BroadcastsInDim S100000x128 (![] : Fin 0 → Fin S100000x128.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S_S100000x1 : S_.BroadcastsInDim S100000x1 (![] : Fin 0 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000x128_S625000x1_S625000x128_1_0_0_1_wf : ScatterDims.WF S100000x128 S625000x1 S625000x128 [1] [0] [0] 1
  scatter_S100000x1_S625000x1_S625000x1_1_0_0_1_wf : ScatterDims.WF S100000x1 S625000x1 S625000x1 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000x1_S625000x1_S625000x1_1_0_0_1 : ScatterDims S100000x1 S625000x1 S625000x1 where
  updateWindowDims := [1]
  insertedWindowDims := [0]
  scatterDimsToOperandDims := [0]
  indexVectorDim := 1
  wf := scatter_S100000x1_S625000x1_S625000x1_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S625000x128 : Shape := ⟨2, ![625000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S100000x1 : Shape := ⟨2, ![100000, 1]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S625000x128, .f32⟩
  | .hbm, ⟨2, _⟩ => ⟨S2x625000, .i32⟩
  | .hbm, ⟨3, _⟩ => ⟨S128x128, .f32⟩
  | .hbm, ⟨4, _⟩ => ⟨S128, .f32⟩
  | .hbm, ⟨5, _⟩ => ⟨S1x625000, .i32⟩
  | .hbm, ⟨6, _⟩ => ⟨S625000, .i32⟩
  | .hbm, ⟨7, _⟩ => ⟨S_, .f32⟩
  | .hbm, ⟨8, _⟩ => ⟨S100000x128, .f32⟩
  | .hbm, ⟨9, _⟩ => ⟨S625000x1, .i32⟩
  | .hbm, ⟨10, _⟩ => ⟨S100000x128, .f32⟩
  | .hbm, ⟨11, _⟩ => ⟨S_, .f32⟩
  | .hbm, ⟨12, _⟩ => ⟨S625000x1, .f32⟩
  | .hbm, ⟨13, _⟩ => ⟨S_, .f32⟩
  | .hbm, ⟨14, _⟩ => ⟨S100000x1, .f32⟩
  | .hbm, ⟨15, _⟩ => ⟨S625000x1, .i32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  bcast_S_S100000x128 : S_.BroadcastsInDim S100000x128 (![] : Fin 0 → Fin S100000x128.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S625000x1_S625000x128_1_0_0_1_wf : ScatterDims.WF S100000x128 S625000x1 S625000x128 [1] [0] [0] 1
  scatter_S100000x1_S625000x1_S625000x1_1_0_0_1_wf : ScatterDims.WF S100000x1 S625000x1 S625000x1 [1] [0] [0] 1
  dot_S100000x128_S128x128_S100000x128_1_1_0_0_n_n_wf : DotDims.WF S100000x128 S128x128 S100000x128 [1] [1] [0] [0] [] []

variable [Facts₀]

def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000x1_S625000x1_S625000x1_1_0_0_1 : ScatterDims S100000x1 S625000x1 S625000x1 where
  updateWindowDims := [1]
  insertedWindowDims := [0]
  scatterDimsToOperandDims := [0]
  indexVectorDim := 1
  wf := scatter_S100000x1_S625000x1_S625000x1_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.LibColumnBroadcast.lean ====
/- A general layout fact: a column broadcast over the lanes, read at an index. -/
import Idealize.ShloMosaic.Lib.Pipeline.Value
import Idealize.ShloMosaic.Lib.ValueIdx

namespace Cert.Lib

open Idealize.ShloMosaic Idealize.ShloMosaic.ValueIdx

/-- An `[a, 1]` array (one value per row, as a reduction that keeps its axis leaves it) broadcast to `[a, b]` reads, at
    `(p, c)`, row `p`'s one value, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.BlockValue.lean ====
/- What the kernel body stores at row p, lane q of its output block, as a formula of the five blocks it loads: the
   counts' column is raised to at least one and spread over the lanes, the sums are divided by it and averaged with
   the node block, the matrix product into a zero accumulator is the sum over the shared feature axis (rounding to a
   shorter float format is the identity here), the bias row is spread over the rows, and the logistic function is
   applied. -/
import proofs.«131752_j86474871537828_2_alg».proof.Proof.Gen.KernelIdeal.Skeleton
import proofs.«131752_j86474871537828_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- The block product's dimensions: rows of the left operand against rows of the right, both contracted on their
    second axis. -/
abbrev rowsByRows := dot_S5000x128_S128x128_S5000x128_1_1_0_0_n_n

theorem lhs_row (i : S5000x128.Idx) (κ : rowsByRows.contr.Idx) : (rowsByRows.lhsIdx i κ 0).val = (i 0).val := by
  unfold DotDims.lhsIdx
  rw [dif_neg (show ¬(0 : Fin S5000x128.rank) ∈ rowsByRows.lhsBatch by decide),
    dif_pos (show (0 : Fin S5000x128.rank) ∈ rowsByRows.lhsNonContracting by decide)]
  rfl

theorem lhs_feature (i : S5000x128.Idx) (κ : rowsByRows.contr.Idx) :
    (rowsByRows.lhsIdx i κ 1).val = (κ ⟨0, by decide⟩).val :=
  rowsByRows.lhsIdx_val_of_single rfl i κ

theorem rhs_row (i : S5000x128.Idx) (κ : rowsByRows.contr.Idx) : (rowsByRows.rhsIdx i κ 0).val = (i 1).val := by
  unfold DotDims.rhsIdx
  rw [dif_neg (show ¬(0 : Fin S128x128.rank) ∈ rowsByRows.rhsBatch by decide),
    dif_pos (show (0 : Fin S128x128.rank) ∈ rowsByRows.rhsNonContracting by decide)]
  rfl

theorem rhs_feature (i : S5000x128.Idx) (κ : rowsByRows.contr.Idx) :
    (rowsByRows.rhsIdx i κ 1).val = (κ ⟨0, by decide⟩).val :=
  rowsByRows.rhsIdx_val_of_single rfl i κ

/-- The matrix product into a zero accumulator, at row `p` and lane `q`: the sum over the feature axis of the left
    operand's row `p` against the right operand's row `q`. -/
theorem product_apply (l : FVec Ideal S5000x128 .bf16) (r : FVec Ideal S128x128 .bf16) (p : Fin 5000) (q : Fin 128) :
    matmul (F := Ideal) rowsByRows none l r (constant S5000x128 .f32 0x00000000#32) (ix2 p q)
      = ∑ k : Fin 128, l (ix2 p k) * r (ix2 q k) := by
  show FloatOps.matmul rowsByRows none l r (constant S5000x128 .f32 0x00000000#32) (ix2 p q) = _
  rw [Ideal.matmul_constant_zero_apply, ← Equiv.sum_comp (contrEquiv1 rowsByRows 128 rfl rfl).symm]
  refine Finset.sum_congr rfl fun k _ => ?_
  have hk := contrEquiv1_symm_val rowsByRows 128 rfl rfl k
  have el : rowsByRows.lhsIdx (ix2 p q) ((contrEquiv1 rowsByRows 128 rfl rfl).symm k) = ix2 p k :=
    funext fun a => Fin.ext (by
      match a with
      | ⟨0, _⟩ => exact lhs_row _ _
      | ⟨1, _⟩ => exact (lhs_feature _ _).trans hk)
  have er : rowsByRows.rhsIdx (ix2 p q) ((contrEquiv1 rowsByRows 128 rfl rfl).symm k) = ix2 q k :=
    funext fun a => Fin.ext (by
      match a with
      | ⟨0, _⟩ => exact rhs_row _ _
      | ⟨1, _⟩ => exact (rhs_feature _ _).trans hk)
  rw [el, er]

/-- The body's stored value at row `p`, lane `q`, from the counts, sums, node, weight and bias blocks. -/
theorem payload_apply (cnt : FVec Ideal S5000x1 .f32) (sm nd : FVec Ideal S5000x128 .f32) (w : FVec Ideal S128x128 .f32)
    (bb : FVec Ideal S128 .f32) (p : Fin 5000) (q : Fin 128) :
    k0_pay1 (F := Ideal) cnt sm nd w bb (ix2 p q)
      = Ideal.logistic ((∑ k : Fin 128,
          ((nd (ix2 p k) + Ideal.div (sm (ix2 p k)) (max (cnt (ix2 p (0 : Fin 1))) (Ideal.ofBits .f32 0x3F800000#32)))
            * Ideal.ofBits .f32 0x3F000000#32) * w (ix2 q k)) + bb (ix1 q)) := by
  unfold k0_pay1
  refine congrArg Ideal.logistic (congrArg₂ (· + ·) ?_ ?_)
  · refine (product_apply _ _ p q).trans (Finset.sum_congr rfl fun k _ => congrArg₂ (· * ·) ?_ rfl)
    refine congrArg₂ (· * ·) (congrArg₂ (· + ·) rfl (congrArg₂ Ideal.div ?_ ?_)) rfl
    · exact congrFun (shapeCast_self sm _) (ix2 p k)
    · refine (Cert.Lib.broadcastTo_a1_ab_apply _ _ p k).trans ?_
      exact congrArg₂ max (congrFun (shapeCast_self cnt _) _) rfl
  · exact (broadcastTo_1b_ab_apply _ _ p q).trans (shapeCast_a_1a_apply bb _ (0 : Fin 1) q)

end Cert.KernelIdeal.BlockValue

end
-- ==== Proof.RegionEntry.lean ====
/- What the kernel's windows 1 and 2 hold when the region is entered: the host operations before it take row 0 of the
   edge index as the target of every edge and scatter-add, into zero, the edges' feature rows (the sums) and a column
   of ones (the counts). -/
import proofs.«131752_j86474871537828_2_alg».proof.Proof.Gen.KernelIdeal.Frame
import Idealize.ShloMosaic.Lib.StableHlo.Run

noncomputable section

namespace Cert.KernelIdeal.RegionEntry

open Cert.KernelIdeal Cert.KernelIdeal.Gen Idealize.ShloMosaic Idealize.ShloMosaic.TcCoe Idealize.SL.Sem Idealize.ShloMosaic.StableHlo

variable {F : FTy → Type} [FloatOps F]

/-- Each edge's target node: row 0 of the edge index, as a column. -/
def targets (x2 : (⟨S2x625000, .i32⟩ : BufTy).Contents (Elt F)) : (⟨S625000x1, .i32⟩ : BufTy).Contents (Elt F) :=
  broadcastInDim S625000x1 ![0] bcast_S625000_S625000x1_0
    (shapeCast _ (extractStridedSlice S1x625000 ![0, 0] x2 slices_S2x625000_S1x625000_0_0) shapeCasts_S1x625000_S625000)

/-- Per node, the sum of the feature rows of the edges that target it. -/
def edgeSums (x1 : (⟨S625000x128, .f32⟩ : BufTy).Contents (Elt F)) (x2 : (⟨S2x625000, .i32⟩ : BufTy).Contents (Elt F)) :
    (⟨S100000x128, .f32⟩ : BufTy).Contents (Elt F) :=
  Host.scatterAdd scatter_S100000x128_S625000x1_S625000x128_1_0_0_1
    (broadcastInDim S100000x128 ![] bcast_S_S100000x128 (constant S_ .f32 0x00000000#32)) (targets x2) x1

/-- Per node, the number of edges that target it (a sum of ones). -/
def edgeCounts (x2 : (⟨S2x625000, .i32⟩ : BufTy).Contents (Elt F)) : (⟨S100000x1, .f32⟩ : BufTy).Contents (Elt F) :=
  Host.scatterAdd scatter_S100000x1_S625000x1_S625000x1_1_0_0_1
    (broadcastInDim S100000x1 ![] bcast_S_S100000x1 (constant S_ .f32 0x00000000#32)) (targets x2)
    (broadcastInDim S625000x1 ![] bcast_S_S625000x1 (constant S_ .f32 0x3F800000#32))

variable (m : (ℓ : Loc nD τ sig) → Buf (Elt F) ℓ)

/-- The region finds the summed edge features in the array its window 1 stages. -/
theorem sums_at_entry (c : Dev nD) :
    V m c main_v4 = edgeSums (m ((c : Thread nD τ).loc main_arg1)) (m ((c : Thread nD τ).loc main_arg2)) := by
  dsimp only [V, hostOps0]; after_results; rfl

/-- The region finds the edge counts in the array its window 2 stages. -/
theorem counts_at_entry (c : Dev nD) :
    V m c main_v8 = edgeCounts (m ((c : Thread nD τ).loc main_arg2)) := by
  dsimp only [V, hostOps0]; after_results; rfl

/-! ## The same facts for the arrays as the pipeline's windows name them

The pipeline names window w's array by the window's own reference. Two names of one buffer give one contents: this is
read off the equation of the references, never by comparing the contents. -/

theorem V_of_ref_eq (c : Dev nD) {r r' : Ref sig .tc} (h : r = r') : HEq (V m c r) (V m c r') := by
  subst h; exact HEq.rfl

/-- Window 0 stages the node features, as launched. -/
theorem window_node (c : Dev nD) : V m c (Pipeline.arrRef spec0 0) = m ((c : Thread nD τ).loc main_arg0) :=
  (eq_of_heq (V_of_ref_eq m c (rfl : Pipeline.arrRef spec0 0 = main_arg0))).trans (V_main_arg0 m c)

/-- Window 1 stages the summed edge features. -/
theorem window_sums (c : Dev nD) :
    V m c (Pipeline.arrRef spec0 1) = edgeSums (m ((c : Thread nD τ).loc main_arg1)) (m ((c : Thread nD τ).loc main_arg2)) :=
  (eq_of_heq (V_of_ref_eq m c (rfl : Pipeline.arrRef spec0 1 = main_v4))).trans (sums_at_entry m c)

/-- Window 2 stages the edge counts. -/
theorem window_counts (c : Dev nD) :
    V m c (Pipeline.arrRef spec0 2) = edgeCounts (m ((c : Thread nD τ).loc main_arg2)) :=
  (eq_of_heq (V_of_ref_eq m c (rfl : Pipeline.arrRef spec0 2 = main_v8))).trans (counts_at_entry m c)

/-- Window 3 stages the weights, as launched. -/
theorem window_weights (c : Dev nD) : V m c (Pipeline.arrRef spec0 3) = m ((c : Thread nD τ).loc main_arg3) :=
  (eq_of_heq (V_of_ref_eq m c (rfl : Pipeline.arrRef spec0 3 = main_arg3))).trans (V_main_arg3 m c)

/-- Window 4 stages the bias, as launched. -/
theorem window_bias (c : Dev nD) : V m c (Pipeline.arrRef spec0 4) = m ((c : Thread nD τ).loc main_arg4) :=
  (eq_of_heq (V_of_ref_eq m c (rfl : Pipeline.arrRef spec0 4 = main_arg4))).trans (V_main_arg4 m c)

end Cert.KernelIdeal.RegionEntry

end
-- ==== Proof.NodeUpdate.lean ====
/- The function both programs compute, stated once over plain arrays of extended reals.
   For node n (of 100000) and output channel o (of 128), from the node features, the per-node sums and counts of the
   incoming edges' features, the weight matrix and the bias:
     mixed n d    = (node[n,d] + sums[n,d] / max(counts[n], 1)) · ½        the node's feature averaged with its edges' mean
     update n o   = logistic( Σ_d mixed n d · W[o,d] + b[o] )              a linear layer contracting both last axes
   The division is the extended reals' total one and the logistic function is 1 / (1 + exp(-y)) with its limits at the
   infinities; the two literals are kept as their f32 words, the same words in both programs. -/
import Idealize.ShloMosaic.PureOps.Ideal
import Idealize.ShloMosaic.Lib.ValueIdx

noncomputable section

namespace Cert.NodeUpdate

open Idealize.ShloMosaic Idealize.ShloMosaic.ValueIdx

/-- Feature `d` of node `n` after averaging with the mean of its incoming edges: the edges' sum over the edge count, the
    count raised to at least one so that a node without edges keeps a zero mean, then the midpoint with the node's own
    feature. -/
def mixed (node sums : FVec Ideal ⟨2, ![100000, 128]⟩ .f32) (counts : FVec Ideal ⟨2, ![100000, 1]⟩ .f32)
    (n : Fin 100000) (d : Fin 128) : EReal :=
  (node (ix2 n d) + Ideal.div (sums (ix2 n d)) (max (counts (ix2 n (0 : Fin 1))) (Ideal.ofBits .f32 0x3F800000#32)))
    * Ideal.ofBits .f32 0x3F000000#32

/-- Output channel `o` of node `n`: the averaged features contracted with row `o` of the weights, the bias added, the
    logistic function applied. -/
def updateAt (node sums : FVec Ideal ⟨2, ![100000, 128]⟩ .f32) (counts : FVec Ideal ⟨2, ![100000, 1]⟩ .f32)
    (W : FVec Ideal ⟨2, ![128, 128]⟩ .f32) (b : FVec Ideal ⟨1, ![128]⟩ .f32) (n : Fin 100000) (o : Fin 128) : EReal :=
  Ideal.logistic ((∑ k : Fin 128, mixed node sums counts n k * W (ix2 o k)) + b (ix1 o))

/-- The whole result array. -/
def update (node sums : FVec Ideal ⟨2, ![100000, 128]⟩ .f32) (counts : FVec Ideal ⟨2, ![100000, 1]⟩ .f32)
    (W : FVec Ideal ⟨2, ![128, 128]⟩ .f32) (b : FVec Ideal ⟨1, ![128]⟩ .f32) : FVec Ideal ⟨2, ![100000, 128]⟩ .f32 :=
  fun i => updateAt node sums counts W b (i 0) (i 1)

theorem update_ix2 (node sums : FVec Ideal ⟨2, ![100000, 128]⟩ .f32) (counts : FVec Ideal ⟨2, ![100000, 1]⟩ .f32)
    (W : FVec Ideal ⟨2, ![128, 128]⟩ .f32) (b : FVec Ideal ⟨1, ![128]⟩ .f32) (n : Fin 100000) (o : Fin 128) :
    update node sums counts W b (ix2 n o) = updateAt node sums counts W b n o := rfl

end Cert.NodeUpdate

end
-- ==== Proof.KernelValue.lean ====
/- From blocks to the array. Grid point t (of 20) stages rows 5000·t … 5000·t + 4999 of the node features, of the edge
   sums and of the edge counts, and the whole weight matrix and bias; its body's stored value at (p, q) is the node
   update of row 5000·t + p, channel q; the point writes its block back to the same rows of the result. The twenty
   blocks cover the 100000 rows, so the result array ends as the node update of the arrays the region found.
   Every step that reads an array at an index is stated for arbitrary arrays; the arrays the region finds are put in
   only as wholes. -/
import proofs.«131752_j86474871537828_2_alg».proof.Proof.Gen.KernelIdeal.Value
import proofs.«131752_j86474871537828_2_alg».proof.Proof.BlockValue
import proofs.«131752_j86474871537828_2_alg».proof.Proof.RegionEntry
import proofs.«131752_j86474871537828_2_alg».proof.Proof.NodeUpdate

noncomputable section

namespace Cert.KernelIdeal.KernelValue

open Cert.KernelIdeal Cert.KernelIdeal.Gen Idealize.ShloMosaic Idealize.ShloMosaic.TcCoe Idealize.SL.Sem
open Idealize.ShloMosaic.ValueIdx Cert.NodeUpdate
open Idealize.ShloMosaic.Pipeline (Dat)

theorem origin2 : (![0, 0] : Fin 2 → Nat) = fun _ => 0 := funext fun a => by fin_cases a <;> rfl
theorem origin1 : (![0] : Fin 1 → Nat) = fun _ => 0 := funext fun a => by fin_cases a; rfl

/-- The printed index maps over the grid: the three row-blocked inputs and the output sit at block row t, block
    column 0; the weights and the bias at block 0 throughout. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each window's block of an array, read where it sits in the array -/

section Blocks

variable (A0 A1 : FVec Ideal S100000x128 .f32) (A2 : FVec Ideal S100000x1 .f32) (A3 : FVec Ideal S128x128 .f32)
  (A4 : FVec Ideal S128 .f32)

/-- Row `p` of point `t`'s block of window 0 is row `5000·t + p` of the array. -/
theorem node_rows (t : Fin cfg0.N) (p : Fin 5000) (k : Fin 128) (n : Fin 100000) (hn : n.val = t.val * 5000 + p.val) :
    (((cfg0.win 0).blk t).view.read (Elt Ideal) A0 : FVec Ideal S5000x128 .f32) (ix2 p k) = A0 (ix2 n k) := by
  obtain ⟨e0, e1, -⟩ := block_indices t
  rw [View.read_apply]
  refine congrArg A0 (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The same for window 1. -/
theorem sums_rows (t : Fin cfg0.N) (p : Fin 5000) (k : Fin 128) (n : Fin 100000) (hn : n.val = t.val * 5000 + p.val) :
    (((cfg0.win 1).blk t).view.read (Elt Ideal) A1 : FVec Ideal S5000x128 .f32) (ix2 p k) = A1 (ix2 n k) := by
  obtain ⟨-, -, e0, e1, -⟩ := block_indices t
  rw [View.read_apply]
  refine congrArg A1 (funext fun a => Fin.ext ?_)
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

/-- Row `p` of point `t`'s block of window 2, a column, is row `5000·t + p` of the array. -/
theorem counts_rows (t : Fin cfg0.N) (p : Fin 5000) (n : Fin 100000) (hn : n.val = t.val * 5000 + p.val) :
    (((cfg0.win 2).blk t).view.read (Elt Ideal) A2 : FVec Ideal S5000x1 .f32) (ix2 p (0 : Fin 1)) = A2 (ix2 n (0 : Fin 1)) := by
  obtain ⟨-, -, -, -, e0, e1, -⟩ := block_indices t
  rw [View.read_apply]
  refine congrArg A2 (funext fun a => Fin.ext ?_)
  match a with
  | ⟨0, _⟩ => show win0_2.index t (0 : Fin 2) * 5000 + 1 * p.val = n.val; rw [e0, hn]; omega
  | ⟨1, _⟩ => show win0_2.index t (1 : Fin 2) * 1 + 1 * 0 = 0; rw [e1]

/-- Every point's block of window 3 is the whole array. -/
theorem weight_rows (t : Fin cfg0.N) (q k : Fin 128) :
    (((cfg0.win 3).blk t).view.read (Elt Ideal) A3 : FVec Ideal S128x128 .f32) (ix2 q k) = A3 (ix2 q k) := by
  obtain ⟨-, -, -, -, -, -, e0, e1, -⟩ := block_indices t
  rw [View.read_apply]
  refine congrArg A3 (funext fun a => Fin.ext ?_)
  match a with
  | ⟨0, _⟩ => show win0_3.index t (0 : Fin 2) * 128 + 1 * q.val = q.val; rw [e0]; omega
  | ⟨1, _⟩ => show win0_3.index t (1 : Fin 2) * 128 + 1 * k.val = k.val; rw [e1]; omega

/-- Every point's block of window 4 is the whole array. -/
theorem bias_rows (t : Fin cfg0.N) (q : Fin 128) :
    (((cfg0.win 4).blk t).view.read (Elt Ideal) A4 : FVec Ideal S128 .f32) (ix1 q) = A4 (ix1 q) := by
  obtain ⟨-, -, -, -, -, -, -, -, e0, -⟩ := block_indices t
  rw [View.read_apply]
  refine congrArg A4 (funext fun a => Fin.ext ?_)
  match a with
  | ⟨0, _⟩ => show win0_4.index t (0 : Fin 1) * 128 + 1 * q.val = q.val; rw [e0]; omega

/-! ## What a point stores -/

/-- From the five blocks of point `t`, the body's stored value at (p, q) is the node update of row `5000·t + p`,
    channel `q`, of the five arrays. -/
theorem stored_at (t : Fin cfg0.N) (p : Fin 5000) (q : Fin 128) (n : Fin 100000) (hn : n.val = t.val * 5000 + p.val) :
    k0_pay1 (F := Ideal) (((cfg0.win 2).blk t).view.read (Elt Ideal) A2) (((cfg0.win 1).blk t).view.read (Elt Ideal) A1)
        (((cfg0.win 0).blk t).view.read (Elt Ideal) A0) (((cfg0.win 3).blk t).view.read (Elt Ideal) A3)
        (((cfg0.win 4).blk t).view.read (Elt Ideal) A4) (ix2 p q)
      = updateAt A0 A1 A2 A3 A4 n q := by
  refine (BlockValue.payload_apply _ _ _ _ _ p q).trans ?_
  unfold updateAt mixed
  refine congrArg Ideal.logistic (congrArg₂ (· + ·) (Finset.sum_congr rfl fun k _ => ?_) (bias_rows A4 t q))
  exact congrArg₂ (· * ·)
    (congrArg₂ (· * ·)
      (congrArg₂ (· + ·) (node_rows A0 t p k n hn)
        (congrArg₂ Ideal.div (sums_rows A1 t p k n hn) (congrArg₂ max (counts_rows A2 t p n hn) rfl)))
      rfl)
    (weight_rows A3 t q k)

end Blocks

variable (m : (ℓ : Loc nD τ sig) → Buf (Elt Ideal) ℓ) (ρ : Dev nD → PrngReg)

/-- Point `t` writes back block `t` of the node update of the arrays the region found. -/
theorem flushed_eq (c : Dev nD) (t : Fin cfg0.N) :
    (dats m 0 c).flushed 5 t = ((cfg0.win 5).blk t).view.read (Elt Ideal)
      (update (V m c (Pipeline.arrRef spec0 0)) (V m c (Pipeline.arrRef spec0 1)) (V m c (Pipeline.arrRef spec0 2))
        (V m c (Pipeline.arrRef spec0 3)) (V m c (Pipeline.arrRef spec0 4))) := by
  obtain ⟨-, -, -, -, -, -, -, -, -, e0, e1⟩ := block_indices t
  have ht : t.val < 20 := lt_of_lt_of_eq t.isLt (N_0 : cfg0.N = 20)
  rw [Value.flushed5]
  unfold out0_5 iblk
  rw [View.canon_unit_zero origin2]
  simp only [View.ld_unit_zero (S := S5000x128) origin2, View.ld_unit_zero (S := S5000x1) origin2,
    View.ld_unit_zero (S := S128x128) origin2, View.ld_unit_zero (S := S128) origin1]
  funext j
  obtain ⟨p, q, rfl⟩ : ∃ (p : Fin 5000) (q : Fin 128), j = ix2 p q := ⟨j 0, j 1, eq_ix2 j⟩
  have hp : p.val < 5000 := p.isLt
  rw [View.read_apply]
  have hemb : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; rw [e0]; omega
    | ⟨1, _⟩ => show win0_5.index t (1 : Fin 2) * 128 + 1 * q.val = q.val; rw [e1]; omega
  rw [hemb, update_ix2]
  exact stored_at (V m c (Pipeline.arrRef spec0 0)) (V m c (Pipeline.arrRef spec0 1)) (V m c (Pipeline.arrRef spec0 2))
    (V m c (Pipeline.arrRef spec0 3)) (V m c (Pipeline.arrRef spec0 4)) t p q _ rfl

/-! ## The blocks cover the array -/

/-- An index of the result is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v9).slice (win0_5.rect t)).set ↔ _
  rw [View.set_slice_whole, Rect.mem_set_unit]
  exact Iff.rfl

/-- Row `r` of the result lies in the block of point `r / 5000`, and every point writes its block back. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, e0, e1⟩ := block_indices t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- So the result array ends as the node update of the arrays the region found. -/
theorem final (c : Dev nD) : (dats m 0 c).arrAt 5 cfg0.N
    = update (V m c (Pipeline.arrRef spec0 0)) (V m c (Pipeline.arrRef spec0 1)) (V m c (Pipeline.arrRef spec0 2))
        (V m c (Pipeline.arrRef spec0 3)) (V m c (Pipeline.arrRef spec0 4)) :=
  (dats m 0 c).arrAt_eq_of_cover 5 _ (fun t _ => flushed_eq m c t) covered

/-! ## The run -/

/-- Every weakly fair execution of the kernel's program ends with the result array at the node update of the node
    features, the summed features and counts of each node's incoming edges, the weights and the bias, and with the
    arguments as they were. -/
theorem run : θ_run defs (onTc (τ := τ) (main (F := Ideal))) ⟨m, fun _ => 0, ρ⟩ fun r => ∀ c : Dev nD,
      r.2.mem ((c : Thread nD τ).loc main_v9)
        = update (m ((c : Thread nD τ).loc main_arg0))
            (RegionEntry.edgeSums (m ((c : Thread nD τ).loc main_arg1)) (m ((c : Thread nD τ).loc main_arg2)))
            (RegionEntry.edgeCounts (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      rw [RegionEntry.window_node, RegionEntry.window_sums, RegionEntry.window_counts, RegionEntry.window_weights,
        RegionEntry.window_bias])),
      (h c).2⟩)
    (Value.run_blocks m ρ)

end Cert.KernelIdeal.KernelValue

end
-- ==== Proof.ReferenceValue.lean ====
/- The reference's result, read one operation at a time, is the node update of its arguments and of the two scatter
   sums it computes first: the contraction is the sum over the shared feature axis, the two broadcasts of the counts
   and of the bias read row n and channel o, and 1 / (1 + exp(-y)) is the logistic function by definition. -/
import proofs.«131752_j86474871537828_2_alg».proof.Proof.Gen.ReferenceIdeal.Read
import proofs.«131752_j86474871537828_2_alg».proof.Proof.NodeUpdate
import Idealize.ShloMosaic.Lib.IdealHost

noncomputable section

namespace Cert.ReferenceIdeal.RefValue

open Cert.ReferenceIdeal Cert.ReferenceIdeal.Read Idealize.ShloMosaic Idealize.ShloMosaic.ValueIdx Cert.NodeUpdate

/-- The stage the contraction reads, at row `n` and feature `k`: the node's feature averaged with the mean of its
    incoming edges' features (the counts' column read at row `n`, whatever the feature). -/
theorem averaged_apply (x0 : (⟨S100000x128, .f32⟩ : BufTy).Contents (Elt Ideal)) (x1 : (⟨S625000x128, .f32⟩ : BufTy).Contents (Elt Ideal))
    (x2 : (⟨S2x625000, .i32⟩ : BufTy).Contents (Elt Ideal)) (n : Fin 100000) (k : Fin 128) :
    val_main_v15 (F := Ideal) x0 x1 x2 (ix2 n k)
      = mixed x0 (val_main_v4 (F := Ideal) x1 x2) (val_main_v8 (F := Ideal) x2) n k := by
  have ec : idx_main_v11 (ix2 n k) = ix2 n (0 : Fin 1) :=
    funext fun a => Fin.ext (by match a with | ⟨0, _⟩ => rfl | ⟨1, _⟩ => rfl)
  rw [val_main_v15_apply, val_main_v14_apply, val_main_cst_3_apply, val_main_v13_apply, val_main_v12_apply,
    val_main_v11_apply, ec, val_main_v10_apply, val_main_v9_apply, val_main_cst_2_apply]
  rfl

/-- The reference's last stage is the node update of the node features, the summed edge features, the edge counts, the
    weights and the bias. -/
theorem result_eq (x0 : (⟨S100000x128, .f32⟩ : BufTy).Contents (Elt Ideal)) (x1 : (⟨S625000x128, .f32⟩ : BufTy).Contents (Elt Ideal))
    (x2 : (⟨S2x625000, .i32⟩ : BufTy).Contents (Elt Ideal)) (x3 : (⟨S128x128, .f32⟩ : BufTy).Contents (Elt Ideal))
    (x4 : (⟨S128, .f32⟩ : BufTy).Contents (Elt Ideal)) :
    val_main_v25 (F := Ideal) x0 x1 x2 x3 x4
      = update x0 (val_main_v4 (F := Ideal) x1 x2) (val_main_v8 (F := Ideal) x2) x3 x4 := by
  funext i
  obtain ⟨n, o, rfl⟩ : ∃ (n : Fin 100000) (o : Fin 128), i = ix2 n o := ⟨i 0, i 1, eq_ix2 i⟩
  have el : ∀ k : Fin 128, lidx_main_v16 (ix2 n o) k = ix2 n k := fun k =>
    funext fun a => Fin.ext (by match a with | ⟨0, _⟩ => rfl | ⟨1, _⟩ => rfl)
  have er : ∀ k : Fin 128, ridx_main_v16 (ix2 n o) k = ix2 o k := fun k =>
    funext fun a => Fin.ext (by match a with | ⟨0, _⟩ => rfl | ⟨1, _⟩ => rfl)
  have eb : idx_main_v17 (idx_main_v18 (ix2 n o)) = ix1 o :=
    funext fun a => Fin.ext (by match a with | ⟨0, _⟩ => rfl)
  have hsum : (∑ k : Fin 128, val_main_v15 (F := Ideal) x0 x1 x2 (lidx_main_v16 (ix2 n o) k) * x3 (ridx_main_v16 (ix2 n o) k))
      = ∑ k : Fin 128, mixed x0 (val_main_v4 (F := Ideal) x1 x2) (val_main_v8 (F := Ideal) x2) n k * x3 (ix2 o k) :=
    Finset.sum_congr rfl fun k _ => by rw [el k, er k, averaged_apply]
  rw [update_ix2, val_main_v25_apply, val_main_v24_apply, val_main_cst_5_apply, val_main_v23_apply, val_main_v22_apply,
    val_main_cst_4_apply, val_main_v21_apply, val_main_v20_apply, val_main_v19_apply, val_main_v16_apply,
    val_main_v18_apply, val_main_v17_apply, eb, hsum]
  unfold updateAt Ideal.logistic
  generalize (∑ k : Fin 128, mixed x0 (val_main_v4 (F := Ideal) x1 x2) (val_main_v8 (F := Ideal) x2) n k * x3 (ix2 o k)) = s
  show Ideal.div (Ideal.ofBits .f32 0x3F800000#32) (Ideal.ofBits .f32 0x3F800000#32 + Ideal.exp (-(s + x4 (ix1 o)))) = _
  rw [Ideal.ofBits_one_f32]

end Cert.ReferenceIdeal.RefValue

end
-- ==== Proof.SharedScatter.lean ====
/- Both programs begin with the same host operations: row 0 of the edge index as each edge's target, then a
   scatter-addition into zero of the edges' feature rows, and one of a column of ones. Named on the kernel's side as the
   sums and counts its windows stage, and on the reference's side as two of its stages, they are the same terms. They
   are compared as they are printed, operation by operation, and never evaluated. -/
import proofs.«131752_j86474871537828_2_alg».proof.Proof.RegionEntry
import proofs.«131752_j86474871537828_2_alg».proof.Proof.Gen.ReferenceIdeal.Read

noncomputable section

namespace Cert.SharedScatter

open Idealize.ShloMosaic

/-- The kernel's summed edge features are the reference's. -/
theorem sums_agree (a1 : (⟨Cert.ReferenceIdeal.S625000x128, .f32⟩ : BufTy).Contents (Elt Ideal))
    (a2 : (⟨Cert.ReferenceIdeal.S2x625000, .i32⟩ : BufTy).Contents (Elt Ideal)) :
    Cert.ReferenceIdeal.Read.val_main_v4 (F := Ideal) a1 a2 = Cert.KernelIdeal.RegionEntry.edgeSums (F := Ideal) a1 a2 := by
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.KernelIdeal.RegionEntry.edgeSums Cert.KernelIdeal.RegionEntry.targets
  rfl

/-- The kernel's edge counts are the reference's. -/
theorem counts_agree (a2 : (⟨Cert.ReferenceIdeal.S2x625000, .i32⟩ : BufTy).Contents (Elt Ideal)) :
    Cert.ReferenceIdeal.Read.val_main_v8 (F := Ideal) a2 = Cert.KernelIdeal.RegionEntry.edgeCounts (F := Ideal) a2 := by
  unfold Cert.ReferenceIdeal.Read.val_main_v8 Cert.ReferenceIdeal.Read.val_main_v7 Cert.ReferenceIdeal.Read.val_main_v6
    Cert.ReferenceIdeal.Read.val_main_v5 Cert.ReferenceIdeal.Read.val_main_v1 Cert.ReferenceIdeal.Read.val_main_v0
    Cert.ReferenceIdeal.Read.val_main_cst_1 Cert.ReferenceIdeal.Read.val_main_cst_0
    Cert.KernelIdeal.RegionEntry.edgeCounts Cert.KernelIdeal.RegionEntry.targets
  rfl

end Cert.SharedScatter

end
-- ==== Proof.lean ====
/- Both programs first add each edge's feature row into the bin of its target node (sums) and count the edges of each
   bin (counts), by the same two scatter-additions on the host. From there each computes, for node n and output
   channel o,  logistic( Σ_d ((node[n,d] + sums[n,d] / max(counts[n],1)) · ½) · W[o,d] + b[o] ).
   The kernel does it block by block (5000 rows at a time) with one matrix product into a zero accumulator and the
   logistic function; the reference over the whole array with a contraction and 1 / (1 + exp(-y)).
   Over the extended reals these are one function: a change of float format is the identity, the matrix product into
   zero is the contraction's sum, and the logistic function is by definition 1 / (1 + exp(-y)). No law used needs a
   finite operand, so the precondition is never opened. -/
import proofs.«131752_j86474871537828_2_alg».proof.Defs
import proofs.«131752_j86474871537828_2_alg».proof.Proof.Gen.Kernel
import proofs.«131752_j86474871537828_2_alg».proof.Proof.Gen.Kernel.Skeleton
import proofs.«131752_j86474871537828_2_alg».proof.Proof.Gen.Kernel.Launch
import proofs.«131752_j86474871537828_2_alg».proof.Proof.Gen.Kernel.Points
import proofs.«131752_j86474871537828_2_alg».proof.Proof.Gen.Kernel.Frame
import proofs.«131752_j86474871537828_2_alg».proof.Proof.Gen.KernelIdeal
import proofs.«131752_j86474871537828_2_alg».proof.Proof.Gen.KernelIdeal.Skeleton
import proofs.«131752_j86474871537828_2_alg».proof.Proof.Gen.KernelIdeal.Launch
import proofs.«131752_j86474871537828_2_alg».proof.Proof.Gen.KernelIdeal.Points
import proofs.«131752_j86474871537828_2_alg».proof.Proof.Gen.KernelIdeal.Frame
import proofs.«131752_j86474871537828_2_alg».proof.Proof.Gen.KernelIdeal.Value
import proofs.«131752_j86474871537828_2_alg».proof.Proof.Gen.ReferenceIdeal
import proofs.«131752_j86474871537828_2_alg».proof.Proof.Gen.ReferenceIdeal.Run
import proofs.«131752_j86474871537828_2_alg».proof.Proof.Gen.ReferenceIdeal.Read
import proofs.«131752_j86474871537828_2_alg».proof.Proof.Gen.Pre_finite_inputs
import proofs.«131752_j86474871537828_2_alg».proof.Proof.KernelValue
import proofs.«131752_j86474871537828_2_alg».proof.Proof.ReferenceValue
import proofs.«131752_j86474871537828_2_alg».proof.Proof.SharedScatter
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- From memories that agree on the arguments, the kernel's result array ends at the node update of the node features,
    the scatter sums, the weights and the bias, and so does the reference's: its last stage is that function of its own
    arguments and scatter sums, the arguments agree, and the scatter sums are the same terms. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v25_eq, Cert.ReferenceIdeal.RefValue.result_eq, Cert.SharedScatter.sums_agree,
    Cert.SharedScatter.counts_agree, h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
